-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S50000x128 .f32) (main_arg1 : IVec S600000 32) (main_arg2 : IVec S600000 32) (main_arg3 : FVec F S600000 .f32) (main_arg4 : FVec F S128x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S50000x128 : Shape := ⟨2, ![50000, 128]⟩
abbrev S600000 : Shape := ⟨1, ![600000]⟩
abbrev S128x256 : Shape := ⟨2, ![128, 256]⟩
abbrev S600000x1 : Shape := ⟨2, ![600000, 1]⟩
abbrev S_ : Shape := ⟨0, ![]⟩
abbrev S600000x128 : Shape := ⟨2, ![600000, 128]⟩
abbrev S50000x256 : Shape := ⟨2, ![50000, 256]⟩
abbrev S5000x128 : Shape := ⟨2, ![5000, 128]⟩
abbrev S5000x256 : Shape := ⟨2, ![5000, 256]⟩

abbrev nBuf : Space → Nat
  | .hbm => 22
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x256, .f32⟩
  | .hbm, ⟨5, _⟩ => ⟨S600000x1, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x128, .f32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x256 : Shape := ⟨2, ![128, 256]⟩
abbrev S600000x1 : Shape := ⟨2, ![600000, 1]⟩
abbrev S_ : Shape := ⟨0, ![]⟩
abbrev S600000x128 : Shape := ⟨2, ![600000, 128]⟩
abbrev S50000x256 : Shape := ⟨2, ![50000, 256]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x256, .f32⟩
  | .hbm, ⟨5, _⟩ => ⟨S600000x1, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S600000x128, .f32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S50000x256 : S_.BroadcastsInDim S50000x256 (![] : Fin 0 → Fin S50000x256.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.Spec.lean ====
/-
  The dense stage of the layer as ONE function of its two operands, index by index, on the extended reals.

  Given the aggregated node features `x : [50000, 128]` and the projection weights `w : [128, 256]`, the
  result at row `r` and column `q` is

      max (∑ k : Fin 128, x[r, k] · w[k, q]) 0 ,

  that is, relu of the matrix product. Nothing here depends on how the product is scheduled: a sum over the
  128 contracted positions is a finite sum in a commutative monoid, so any tiling of the rows computes the
  same entries. The zero is kept as the word both programs print for it.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Node features after aggregation: 50000 nodes, 128 features each. -/
abbrev SX : Shape := ⟨2, ![50000, 128]⟩
/-- Projection weights: 128 input features to 256 output features. -/
abbrev SW : Shape := ⟨2, ![128, 256]⟩
/-- The layer's output: 50000 nodes, 256 features each. -/
abbrev SY : Shape := ⟨2, ![50000, 256]⟩

/-- One entry of relu (x · w): the inner product of row `r` of `x` with column `q` of `w`, clamped below at zero. -/
def entry (x : FVec Ideal SX .f32) (w : FVec Ideal SW .f32) (r : Fin 50000) (q : Fin 256) : EReal :=
  max (∑ k : Fin 128, x (ix2 (n0 := 50000) (n1 := 128) r k) * w (ix2 (n0 := 128) (n1 := 256) k q))
    (Ideal.ofBits .f32 0x00000000#32)

/-- relu (x · w) as a whole array: entry (r, q) at the index with coordinates r and q. -/
def linearRelu (x : FVec Ideal SX .f32) (w : FVec Ideal SW .f32) : FVec Ideal SY .f32 :=
  fun i => entry x w (i 0) (i 1)

theorem linearRelu_apply (x : FVec Ideal SX .f32) (w : FVec Ideal SW .f32) (r : Fin 50000) (q : Fin 256) :
    linearRelu x w (ix2 (n0 := 50000) (n1 := 256) r q) = entry x w r q := rfl

end Cert.Spec

end
-- ==== Proof.Payload.lean ====
/-
  The kernel body's arithmetic, read at an index of its output block.

  At one grid point the body loads a block of 5000 rows of the aggregated features and the whole weight
  matrix, narrows both to bf16 (the identity on extended reals), multiplies them into a zero accumulator and
  takes the maximum with a splat zero. At row `p` and column `q` of the block that is

      max (∑ k : Fin 128, xb[p, k] · w[k, q]) 0 .

  The matrix unit's product into the zero accumulator is the plain sum over its contraction index; that index
  has one axis of extent 128, so the sum is re-indexed over `Fin 128`, and the operand indices it reads are
  (p, k) on the left and (k, q) on the right.
-/
import proofs.«103426_j10453950399133_1_alg».proof.Proof.Gen.KernelIdeal.Skeleton
import proofs.«103426_j10453950399133_1_alg».proof.Proof.Spec
import Idealize.ShloMosaic.Lib.Pipeline.Value

noncomputable section

namespace Cert.Payload

open Idealize.ShloMosaic Idealize.ShloMosaic.ValueIdx Cert.KernelIdeal Cert.KernelIdeal.Gen

/-! ## Which operand entries the block product reads

The product contracts axis 1 of the left operand with axis 0 of the right one and has no batch axis. So at output
index `i` and contraction index `κ` the left operand is read at (row of `i`, `κ`) and the right one at
(`κ`, column of `i`). -/

/-- Left operand, axis 0: the output's row. -/
theorem lhs_row (i : S5000x256.Idx) (κ : dot_S5000x128_S128x256_S5000x256_1_0_0_1_n_n.contr.Idx) : (dot_S5000x128_S128x256_S5000x256_1_0_0_1_n_n.lhsIdx i κ 0).val = (i 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl

/-- Left operand, axis 1: the contracted coordinate. -/
theorem lhs_col (i : S5000x256.Idx) (κ : dot_S5000x128_S128x256_S5000x256_1_0_0_1_n_n.contr.Idx) : (dot_S5000x128_S128x256_S5000x256_1_0_0_1_n_n.lhsIdx i κ 1).val = (κ ⟨0, by decide⟩).val :=
  dot_S5000x128_S128x256_S5000x256_1_0_0_1_n_n.lhsIdx_val_of_single rfl i κ

/-- Right operand, axis 0: the contracted coordinate. -/
theorem rhs_row (i : S5000x256.Idx) (κ : dot_S5000x128_S128x256_S5000x256_1_0_0_1_n_n.contr.Idx) : (dot_S5000x128_S128x256_S5000x256_1_0_0_1_n_n.rhsIdx i κ 0).val = (κ ⟨0, by decide⟩).val :=
  dot_S5000x128_S128x256_S5000x256_1_0_0_1_n_n.rhsIdx_val_of_single rfl i κ

/-- Right operand, axis 1: the output's column. -/
theorem rhs_col (i : S5000x256.Idx) (κ : dot_S5000x128_S128x256_S5000x256_1_0_0_1_n_n.contr.Idx) : (dot_S5000x128_S128x256_S5000x256_1_0_0_1_n_n.rhsIdx i κ 1).val = (i 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-! ## The block product and the stored value at an index -/

/-- The block product into the zero accumulator at (p, q): the inner product of row `p` with column `q`,
    the contraction index carried to `Fin 128` by the bijection that reads its one coordinate. -/
theorem matmul_entry (l : FVec Ideal S5000x128 .bf16) (r : FVec Ideal S128x256 .bf16) (p : Fin 5000) (q : Fin 256) :
    matmul dot_S5000x128_S128x256_S5000x256_1_0_0_1_n_n none l r (constant (F := Ideal) S5000x256 .f32 0x00000000#32) (ix2 (n0 := 5000) (n1 := 256) p q)
      = ∑ k : Fin 128, l (ix2 (n0 := 5000) (n1 := 128) p k) * r (ix2 (n0 := 128) (n1 := 256) k q) := by
  refine (Ideal.matmul_constant_zero_apply dot_S5000x128_S128x256_S5000x256_1_0_0_1_n_n none l r _).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 (n0 := 5000) (n1 := 256) p q) ((contrEquiv1 dot_S5000x128_S128x256_S5000x256_1_0_0_1_n_n 128 rfl rfl).symm k)
      = ix2 (n0 := 5000) (n1 := 128) p k := funext fun a => Fin.ext (by
    match a with
    | ⟨0, _⟩ => exact lhs_row _ _
    | ⟨1, _⟩ => exact (lhs_col _ _).trans hk)
  have er : dot_S5000x128_S128x256_S5000x256_1_0_0_1_n_n.rhsIdx (ix2 (n0 := 5000) (n1 := 256) p q) ((contrEquiv1 dot_S5000x128_S128x256_S5000x256_1_0_0_1_n_n 128 rfl rfl).symm k)
      = ix2 (n0 := 128) (n1 := 256) k q := funext fun a => Fin.ext (by
    match a with
    | ⟨0, _⟩ => exact (rhs_row _ _).trans hk
    | ⟨1, _⟩ => exact rhs_col _ _)
  rw [el, er]

/-- The body's stored value at (p, q) of its block: relu of the inner product of the loaded row and column. The two
    narrowings and the shape cast to the same shape do not change any entry. -/
theorem pay_entry (xb : Vec Ideal S5000x128 .f32) (w : Vec Ideal S128x256 .f32) (p : Fin 5000) (q : Fin 256) :
    k0_pay1 (F := Ideal) xb w (ix2 (n0 := 5000) (n1 := 256) p q)
      = max (∑ k : Fin 128, xb (ix2 (n0 := 5000) (n1 := 128) p k) * w (ix2 (n0 := 128) (n1 := 256) k q))
          (Ideal.ofBits .f32 0x00000000#32) := by
  unfold k0_pay1
  refine congrArg (fun z => max z (Ideal.ofBits .f32 0x00000000#32)) ?_
  refine (matmul_entry _ _ p q).trans ?_
  refine Finset.sum_congr rfl fun k _ => ?_
  rw [truncf_apply, truncf_apply, shapeCast_self]

end Cert.Payload

end
-- ==== Proof.Blocks.lean ====
/-
  From the blocks the grid points write to the whole output array.

  The grid has 10 points. Point `t` stages rows `5000·t … 5000·t + 4999` of the aggregated features (all 128
  columns) and the whole weight matrix, and writes back rows `5000·t … 5000·t + 4999` of the output (all 256
  columns). Entry (p, q) of the block it writes is relu of the inner product of block row `p` with weight column
  `q`, which is entry (5000·t + p, q) of relu (x · w) of the whole arrays: an output row depends on the same row
  of `x` only, so cutting the rows into blocks changes nothing. The ten row blocks cover every row of the output
  (row `r` lies in block `r / 5000`), so after the run the output array is relu (x · w) everywhere.
-/
import proofs.«103426_j10453950399133_1_alg».proof.Proof.Gen.KernelIdeal.Value
import proofs.«103426_j10453950399133_1_alg».proof.Proof.Payload
import proofs.«103426_j10453950399133_1_alg».proof.Proof.Spec

set_option maxRecDepth 16384

noncomputable section

namespace Cert.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The zero offsets of the body's whole-block accesses, however they are spelt. -/
theorem zero_off : (![0, 0] : Fin 2 → Nat) = fun _ => 0 := funext fun a => by fin_cases a <;> rfl

/-- Row `5000·b + p` of the whole arrays: row `p` of row block `b`. -/
def blockRow (b : Nat) (hb : b ≤ 9) (p : Fin 5000) : Fin 50000 := ⟨b * 5000 + p.val, by have := p.isLt; omega⟩

/-- The block index maps over the ten grid points: the features' row block moves with the output's, every column
    block index is zero, the weights' block never moves, and the output's row block index is at most 9. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the output is some grid point's. -/
theorem index_onto : ∀ b : Fin 10, ∃ t : Fin cfg0.N, win0_2.index t = ![b.val, 0] :=
  (by decide +kernel : ∀ b : Fin 10, ∃ t : Fin grid0.N, win0_2.index t = ![b.val, 0])

/-- One grid point's arithmetic against the whole arrays: if the loaded feature block is rows `5000·b + ·` of `X`
    and the loaded weights are `W`, the value stored at (p, q) is entry (5000·b + p, q) of relu (X · W). -/
theorem point_entry (xb : Vec Ideal S5000x128 .f32) (w : Vec Ideal S128x256 .f32)
    (X : FVec Ideal Cert.Spec.SX .f32) (W : FVec Ideal Cert.Spec.SW .f32) (b : Nat) (hb : b ≤ 9)
    (hx : ∀ (p : Fin 5000) (k : Fin 128),
      xb (ix2 (n0 := 5000) (n1 := 128) p k) = X (ix2 (n0 := 50000) (n1 := 128) (blockRow b hb p) k))
    (hw : ∀ (k : Fin 128) (q : Fin 256),
      w (ix2 (n0 := 128) (n1 := 256) k q) = W (ix2 (n0 := 128) (n1 := 256) k q))
    (p : Fin 5000) (q : Fin 256) :
    k0_pay1 (F := Ideal) xb w (ix2 (n0 := 5000) (n1 := 256) p q)
      = Cert.Spec.linearRelu X W (ix2 (n0 := 50000) (n1 := 256) (blockRow b hb p) q) := by
  rw [Cert.Payload.pay_entry, Cert.Spec.linearRelu_apply]
  unfold Cert.Spec.entry
  refine congrArg (fun z => max z (Ideal.ofBits .f32 0x00000000#32)) ?_
  exact Finset.sum_congr rfl fun k _ => by rw [hx p k, hw k q]

/-- The block that grid point `t` writes back is block `t` of relu (x · w) of the two operand arrays as the region finds
    them: each stored entry is read through the block's embedding into the whole array. -/
theorem flushed_eq (c : Dev nD) (t : Fin cfg0.N) :
    (dats m 0 c).flushed 2 t
      = ((cfg0.win 2).blk t).view.read (Elt Ideal) (Cert.Spec.linearRelu (V m c main_v12) (V m c main_arg4)) := by
  rw [Cert.KernelIdeal.Value.flushed2]
  unfold out0_2
  rw [View.canon_unit_zero zero_off]
  simp only [View.ld_unit_zero (S := S5000x128) zero_off, View.ld_unit_zero (S := S128x256) zero_off]
  obtain ⟨e00, e01, e10, e11, e21, hle⟩ := index_facts t
  funext j
  obtain ⟨p, q, rfl⟩ : ∃ (p : Fin 5000) (q : Fin 256), j = ix2 (n0 := 5000) (n1 := 256) p q := ⟨j 0, j 1, eq_ix2 j⟩
  show k0_pay1 (F := Ideal) (iblk m c 0 t) (iblk m c 1 t) (ix2 (n0 := 5000) (n1 := 256) p q)
    = Cert.Spec.linearRelu (V m c main_v12) (V m c main_arg4) (((cfg0.win 2).blk t).view.emb (ix2 (n0 := 5000) (n1 := 256) p q))
  have hemb : ((cfg0.win 2).blk t).view.emb (ix2 (n0 := 5000) (n1 := 256) p q)
      = ix2 (n0 := 50000) (n1 := 256) (blockRow (win0_2.index t (0 : Fin 2)) hle p) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 256 + 1 * q.val = q.val; omega
  rw [hemb]
  refine point_entry (iblk m c 0 t) (iblk m c 1 t) (V m c main_v12) (V m c main_arg4) (win0_2.index t (0 : Fin 2)) hle ?_ ?_ p q
  · intro p k
    show V m c main_v12 (((cfg0.win 0).blk t).view.emb (ix2 (n0 := 5000) (n1 := 128) p k))
      = V m c main_v12 (ix2 (n0 := 50000) (n1 := 128) (blockRow (win0_2.index t (0 : Fin 2)) hle p) k)
    refine congrArg _ (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  · intro k q
    show V m c main_arg4 (((cfg0.win 1).blk t).view.emb (ix2 (n0 := 128) (n1 := 256) k q))
      = V m c main_arg4 (ix2 (n0 := 128) (n1 := 256) k q)
    refine congrArg _ (funext fun a => Fin.ext ?_)
    match a with
    | ⟨0, _⟩ => show win0_1.index t (0 : Fin 2) * 128 + 1 * k.val = k.val; omega
    | ⟨1, _⟩ => show win0_1.index t (1 : Fin 2) * 256 + 1 * q.val = q.val; omega

/-- An index of the output array is in point `t`'s block iff each coordinate is in the block's range on its axis. -/
theorem mem_block (t : Fin cfg0.N) (i : S50000x256.Idx) :
    i ∈ ((cfg0.win 2).blk t).view.set
      ↔ ∀ a : Fin 2, win0_2.index t a * S5000x256.size a ≤ (i a).val ∧ (i a).val < win0_2.index t a * S5000x256.size a + S5000x256.size a := by
  show i ∈ ((View.whole main_v13).slice (win0_2.rect t)).set ↔ _
  rw [View.set_slice_whole, Rect.mem_set_unit]
  exact Iff.rfl

/-- The ten row blocks cover the output: row `r` lies in block `r / 5000`, whose point writes it back. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 256 ≤ (i 1).val ∧ (i 1).val < win0_2.index t (1 : Fin 2) * 256 + 256
    omega

/-- After the run the output array is relu (x · w) of the two operand arrays as the region finds them: every point's
    block is the matching block of that array, and the blocks cover it. -/
theorem final (c : Dev nD) :
    (dats m 0 c).arrAt 2 cfg0.N = Cert.Spec.linearRelu (V m c main_v12) (V m c main_arg4) :=
  (dats m 0 c).arrAt_eq_of_cover 2 (Cert.Spec.linearRelu (V m c main_v12) (V m c main_arg4))
    (fun t _ => flushed_eq m c t) covered

end Cert.Blocks

end
-- ==== Proof.HostPrefix.lean ====
/-
  What the kernel's region finds in its first operand.

  Before the region the kernel's @main computes the aggregated node features on the host: the source rows of
  `h` gathered along the edges, each scaled by its edge weight, and added into the rows named by the edge
  destinations, starting from zeros. The reference's @main computes its left matrix operand by the very same
  operations, in the same order, with the same literal constants. So the array the region's first window
  stages is the reference's scatter stage of the same arguments; the weights are an argument, which no host
  operation writes. The aggregation itself is never opened: whatever it yields for out-of-range or repeated
  destinations, it yields on both sides.
-/
import proofs.«103426_j10453950399133_1_alg».proof.Proof.Gen.KernelIdeal.Frame
import proofs.«103426_j10453950399133_1_alg».proof.Proof.Gen.ReferenceIdeal.Read
import Idealize.ShloMosaic.Lib.StableHlo.Run

noncomputable section

namespace Cert.HostPrefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- At region entry the first window's array holds the aggregated features: the reference's scatter stage of the
    kernel's own argument arrays. -/
theorem V_aggregated (c : Dev nD) :
    (V m c main_v12 : S50000x128.Idx → EReal)
      = Cert.ReferenceIdeal.Read.val_main_v12 (F := Ideal) (m ((c : Thread nD τ).loc main_arg0))
          (m ((c : Thread nD τ).loc main_arg1)) (m ((c : Thread nD τ).loc main_arg2)) (m ((c : Thread nD τ).loc main_arg3)) := by
  dsimp only [Gen.V, Gen.hostOps0]
  after_results
  rfl

end Cert.HostPrefix

end
-- ==== Proof.KernelRun.lean ====
/-
  The kernel's run, with its result named as a function of the argument arrays.

  Every weakly fair execution of the idealized kernel terminates with its output array at relu (x · w), where
  `x` is the aggregation stage of the first four arguments (the same stage the reference computes) and `w` is the
  fifth argument, and with all five arguments unchanged. This joins three facts: the output array after the run
  is relu (x · w) of the two arrays the region finds (the row blocks cover it); the first of those arrays is
  the aggregation stage; the second is the weights as launched.
-/
import proofs.«103426_j10453950399133_1_alg».proof.Proof.Blocks
import proofs.«103426_j10453950399133_1_alg».proof.Proof.HostPrefix

noncomputable section

namespace Cert.KernelRun

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The layer's result as a function of the kernel's argument arrays on core `c`. -/
def result (c : Dev nD) : FVec Ideal Cert.Spec.SY .f32 :=
  Cert.Spec.linearRelu
    (Cert.ReferenceIdeal.Read.val_main_v12 (F := Ideal) (m ((c : Thread nD τ).loc main_arg0))
      (m ((c : Thread nD τ).loc main_arg1)) (m ((c : Thread nD τ).loc main_arg2)) (m ((c : Thread nD τ).loc main_arg3)))
    (m ((c : Thread nD τ).loc main_arg4))

/-- The output array after the run is that function of the arguments. -/
theorem final_eq (c : Dev nD) : (dats m 0 c).arrAt 2 cfg0.N = result m c := by
  rw [Cert.Blocks.final, Cert.HostPrefix.V_aggregated, V_main_arg4]
  rfl

/-- The run: the output at `result`, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_eq m c), (h c).2⟩)
    (Cert.KernelIdeal.Value.run_blocks m ρ)

end Cert.KernelRun

end
-- ==== Proof.RefValue.lean ====
/-
  The reference, read at an index, is the specification.

  The reference applies one whole `dot_general` of the aggregated features with the weights and then `maximum`
  with a splat zero. Read at the index (r, q) the `dot_general` is the sum over the contracted position `k` of
  the left operand at (r, k) times the right operand at (k, q), and the maximum is taken with the zero word:
  exactly `Spec.entry`. The aggregated features (the scatter-add of the weighted gathered rows) stay an
  unopened stage: both programs compute them by the same operations, so nothing about them is needed here.
-/
import proofs.«103426_j10453950399133_1_alg».proof.Proof.Gen.ReferenceIdeal.Read
import proofs.«103426_j10453950399133_1_alg».proof.Proof.Spec

noncomputable section

namespace Cert.RefValue

open Idealize.ShloMosaic Idealize.ShloMosaic.ValueIdx Cert.ReferenceIdeal Cert.ReferenceIdeal.Read

/-- The left operand's index at output index `i` and contracted position `k`: row of `i`, column `k`. -/
theorem lidx_eq (i : S50000x256.Idx) (k : Fin 128) :
    lidx_main_v13 i k = ix2 (n0 := 50000) (n1 := 128) (i 0) k :=
  funext fun a => Fin.ext (by match a with | ⟨0, _⟩ => rfl | ⟨1, _⟩ => rfl)

/-- The right operand's index at output index `i` and contracted position `k`: row `k`, column of `i`. -/
theorem ridx_eq (i : S50000x256.Idx) (k : Fin 128) :
    ridx_main_v13 i k = ix2 (n0 := 128) (n1 := 256) k (i 1) :=
  funext fun a => Fin.ext (by match a with | ⟨0, _⟩ => rfl | ⟨1, _⟩ => rfl)

/-- The reference's last stage is relu (x · w) of the aggregated features `x` and the weights `w`. -/
theorem result_eq (a0 : (⟨S50000x128, .f32⟩ : BufTy).Contents (Elt Ideal)) (a1 a2 : (⟨S600000, .i32⟩ : BufTy).Contents (Elt Ideal))
    (a3 : (⟨S600000, .f32⟩ : BufTy).Contents (Elt Ideal)) (a4 : (⟨S128x256, .f32⟩ : BufTy).Contents (Elt Ideal)) :
    val_main_v14 (F := Ideal) a0 a1 a2 a3 a4
      = Cert.Spec.linearRelu (val_main_v12 (F := Ideal) a0 a1 a2 a3) a4 := by
  funext i
  rw [val_main_v14_apply, val_main_v13_apply, val_main_call0_v0_apply, val_main_call0_cst_apply]
  simp only [lidx_eq, ridx_eq]
  rfl

end Cert.RefValue

end
-- ==== Proof.lean ====
/-
  A graph layer's dense stage, tiled by rows, against the same stage computed whole.

  Both programs first aggregate node features on the host — gather the source rows of `h` along the edges, scale
  each by its edge weight, add them into the destination rows — by the same operations in the same order, and then
  apply relu (x · W) to the aggregated features `x : [50000, 128]` and the weights `W : [128, 256]`. The kernel
  computes the product in ten row blocks of 5000 rows, each block narrowed to bf16 and multiplied into a zero
  accumulator on the matrix unit; the reference computes one whole `dot_general`.

  On the extended reals a narrowing is the identity and both products are, at row r and column q, the sum over the 128
  contracted positions of x[r, k] · W[k, q]. An output row depends only on the same row of `x`, so the row tiling does
  not change any entry, and the ten blocks cover all 50000 rows. Hence both results are the one array
  `Spec.linearRelu x W`. No property of the inputs is used: the equality is of two readings of one function, so the
  finiteness precondition is never opened, and the aggregation stage is never unfolded.

  The three frames are the generated frame runs; the idealization rewrote nothing, so its conjunct is trivial.
-/
import proofs.«103426_j10453950399133_1_alg».proof.Defs
import proofs.«103426_j10453950399133_1_alg».proof.Proof.Gen.Kernel
import proofs.«103426_j10453950399133_1_alg».proof.Proof.Gen.Kernel.Skeleton
import proofs.«103426_j10453950399133_1_alg».proof.Proof.Gen.Kernel.Launch
import proofs.«103426_j10453950399133_1_alg».proof.Proof.Gen.Kernel.Points
import proofs.«103426_j10453950399133_1_alg».proof.Proof.Gen.Kernel.Frame
import proofs.«103426_j10453950399133_1_alg».proof.Proof.Gen.KernelIdeal
import proofs.«103426_j10453950399133_1_alg».proof.Proof.Gen.KernelIdeal.Skeleton
import proofs.«103426_j10453950399133_1_alg».proof.Proof.Gen.KernelIdeal.Launch
import proofs.«103426_j10453950399133_1_alg».proof.Proof.Gen.KernelIdeal.Points
import proofs.«103426_j10453950399133_1_alg».proof.Proof.Gen.KernelIdeal.Frame
import proofs.«103426_j10453950399133_1_alg».proof.Proof.Gen.ReferenceIdeal
import proofs.«103426_j10453950399133_1_alg».proof.Proof.Gen.Pre_finite_inputs
import proofs.«103426_j10453950399133_1_alg».proof.Proof.Gen.KernelIdeal.Value
import proofs.«103426_j10453950399133_1_alg».proof.Proof.Gen.ReferenceIdeal.Run
import proofs.«103426_j10453950399133_1_alg».proof.Proof.Gen.ReferenceIdeal.Read
import proofs.«103426_j10453950399133_1_alg».proof.Proof.KernelRun
import proofs.«103426_j10453950399133_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its generated run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments, both programs end with relu (x · W) of the aggregated features
    and the weights: the kernel by its row blocks covering the output, the reference by reading its last stage at
    an index. -/
theorem algebraic : Cert.algebraic_KernelIdeal_ReferenceIdeal := by
  intro m ρ m' ρ' _ hagree
  refine ⟨fun c => Cert.KernelRun.result m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
